-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 63
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S1x64, .f32⟩
  | .hbm, ⟨62, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run, read at its last boundary.

  The program is four segments: host operations, the first kernel region, host operations, the second kernel region.
  The generated frame certificate runs them in order and names each core's buffer contents at every boundary; its last
  thread state holds every buffer that is not a staging buffer at the contents of the last boundary.  Here that run is
  posted with those contents themselves rather than with the arguments only: every weakly fair execution terminates,
  nothing faults, and every such buffer of every core ends at the last boundary's contents.  The result array and the
  arguments are among those buffers.
-/
import proofs.«171097_j54863912239933_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Any property of the final memory that follows from "every buffer outside the staging buffers holds the last
    boundary's contents on every core" holds after every weakly fair execution, which terminates without a fault. -/
theorem ends_at_last_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

end Cert.KernelIdeal.Run

end
-- ==== Proof.SageSpec.lean ====
/-
  The mathematics both programs compute, entry by entry, on the extended reals.

  One graph-convolution layer takes the neighbourhood means `a` and the node features `x` (both n x 128), two
  128 x 128 weight matrices and a bias row, and returns at entry (p, q)

      max ( (sum_k a(p,k) * Wl(k,q)  +  sum_k x(p,k) * Wr(k,q))  +  b(q) , 0 ).

  The head takes n x 128 features, a 128 x 64 matrix and a bias row and returns at (p, q)

      sum_k h(p,k) * W(k,q)  +  b(q).

  The grouping of the additions is the one both programs spell, so no law of the extended reals is needed to join
  them.  The zero under the maximum is kept as the float word it is printed as; it is the same word on both sides and
  is never evaluated.  Rows are independent: entry (p, q) reads row p of `a` and of `x` only, which is why a block of
  rows of the result is the same expression of the matching blocks of rows of `a` and `x`.
-/
import Idealize.ShloMosaic.PureOps.Ideal
import Idealize.ShloMosaic.Lib.ValueIdx

noncomputable section

open scoped BigOperators

namespace Cert.Sage

open Idealize.ShloMosaic Idealize.ShloMosaic.ValueIdx

/-- The float word of +0.0, read at the extended reals. -/
abbrev zeroWord : EReal := Ideal.ofBits .f32 0x00000000#32

/-- Entry (p, q) of one layer: the two products summed, the bias added, clamped below at zero. -/
def layerEntry {n : Nat} (a x : (⟨2, ![n, 128]⟩ : Shape).Idx → EReal) (Wl Wr : (⟨2, ![128, 128]⟩ : Shape).Idx → EReal)
    (b : Fin 128 → EReal) (p : Fin n) (q : Fin 128) : EReal :=
  max (((∑ k : Fin 128, a (ix2 p k) * Wl (ix2 k q)) + ∑ k : Fin 128, x (ix2 p k) * Wr (ix2 k q)) + b q) zeroWord

/-- One layer as an n x 128 array. -/
def layer {n : Nat} (a x : (⟨2, ![n, 128]⟩ : Shape).Idx → EReal) (Wl Wr : (⟨2, ![128, 128]⟩ : Shape).Idx → EReal)
    (b : Fin 128 → EReal) : (⟨2, ![n, 128]⟩ : Shape).Idx → EReal :=
  fun j => layerEntry a x Wl Wr b (j 0) (j 1)

/-- Entry (p, q) of the head: one product and the bias. -/
def headEntry {n : Nat} (h : (⟨2, ![n, 128]⟩ : Shape).Idx → EReal) (W : (⟨2, ![128, 64]⟩ : Shape).Idx → EReal)
    (b : Fin 64 → EReal) (p : Fin n) (q : Fin 64) : EReal :=
  (∑ k : Fin 128, h (ix2 p k) * W (ix2 k q)) + b q

/-- The head as an n x 64 array. -/
def head {n : Nat} (h : (⟨2, ![n, 128]⟩ : Shape).Idx → EReal) (W : (⟨2, ![128, 64]⟩ : Shape).Idx → EReal)
    (b : Fin 64 → EReal) : (⟨2, ![n, 64]⟩ : Shape).Idx → EReal :=
  fun j => headEntry h W b (j 0) (j 1)

/-- The second layer followed by the head, at an entry: what the fused second kernel stores. -/
def layerHeadEntry {n : Nat} (a x : (⟨2, ![n, 128]⟩ : Shape).Idx → EReal) (Wl Wr : (⟨2, ![128, 128]⟩ : Shape).Idx → EReal)
    (b : Fin 128 → EReal) (W : (⟨2, ![128, 64]⟩ : Shape).Idx → EReal) (c : Fin 64 → EReal) (p : Fin n) (q : Fin 64) : EReal :=
  (∑ k : Fin 128, layerEntry a x Wl Wr b p k * W (ix2 k q)) + c q

theorem layer_apply {n : Nat} (a x : (⟨2, ![n, 128]⟩ : Shape).Idx → EReal) (Wl Wr : (⟨2, ![128, 128]⟩ : Shape).Idx → EReal)
    (b : Fin 128 → EReal) (p : Fin n) (q : Fin 128) : layer a x Wl Wr b (ix2 p q) = layerEntry a x Wl Wr b p q := rfl

theorem head_apply {n : Nat} (h : (⟨2, ![n, 128]⟩ : Shape).Idx → EReal) (W : (⟨2, ![128, 64]⟩ : Shape).Idx → EReal)
    (b : Fin 64 → EReal) (p : Fin n) (q : Fin 64) : head h W b (ix2 p q) = headEntry h W b p q := rfl

/-- The head of a layer, at an entry, is the fused expression. -/
theorem head_layer_apply {n : Nat} (a x : (⟨2, ![n, 128]⟩ : Shape).Idx → EReal) (Wl Wr : (⟨2, ![128, 128]⟩ : Shape).Idx → EReal)
    (b : Fin 128 → EReal) (W : (⟨2, ![128, 64]⟩ : Shape).Idx → EReal) (c : Fin 64 → EReal) (p : Fin n) (q : Fin 64) :
    head (layer a x Wl Wr b) W c (ix2 p q) = layerHeadEntry a x Wl Wr b W c p q := rfl

/-! ## Rows are independent

An entry of the layer reads one row of each row-indexed operand.  So two layer entries agree as soon as those rows, the
two weight columns and the bias entry agree, whatever the extents of the arrays the rows sit in: this is what lets
a block of rows of the result be computed from the matching blocks of rows. -/

theorem layerEntry_congr {n n' : Nat} {a x : (⟨2, ![n, 128]⟩ : Shape).Idx → EReal} {a' x' : (⟨2, ![n', 128]⟩ : Shape).Idx → EReal}
    {Wl Wr Wl' Wr' : (⟨2, ![128, 128]⟩ : Shape).Idx → EReal} {b b' : Fin 128 → EReal} {p : Fin n} {p' : Fin n'} {q q' : Fin 128}
    (ha : ∀ k, a (ix2 p k) = a' (ix2 p' k)) (hx : ∀ k, x (ix2 p k) = x' (ix2 p' k))
    (hl : ∀ k, Wl (ix2 k q) = Wl' (ix2 k q')) (hr : ∀ k, Wr (ix2 k q) = Wr' (ix2 k q')) (hb : b q = b' q') :
    layerEntry a x Wl Wr b p q = layerEntry a' x' Wl' Wr' b' p' q' := by
  unfold layerEntry
  rw [hb, Finset.sum_congr rfl fun k _ => congrArg₂ (· * ·) (ha k) (hl k),
    Finset.sum_congr rfl fun k _ => congrArg₂ (· * ·) (hx k) (hr k)]

theorem layerHeadEntry_congr {n n' : Nat} {a x : (⟨2, ![n, 128]⟩ : Shape).Idx → EReal} {a' x' : (⟨2, ![n', 128]⟩ : Shape).Idx → EReal}
    {Wl Wr Wl' Wr' : (⟨2, ![128, 128]⟩ : Shape).Idx → EReal} {b b' : Fin 128 → EReal}
    {W W' : (⟨2, ![128, 64]⟩ : Shape).Idx → EReal} {c c' : Fin 64 → EReal} {p : Fin n} {p' : Fin n'} {q q' : Fin 64}
    (ha : ∀ k, a (ix2 p k) = a' (ix2 p' k)) (hx : ∀ k, x (ix2 p k) = x' (ix2 p' k))
    (hl : ∀ k j, Wl (ix2 k j) = Wl' (ix2 k j)) (hr : ∀ k j, Wr (ix2 k j) = Wr' (ix2 k j)) (hb : ∀ j, b j = b' j)
    (hw : ∀ k, W (ix2 k q) = W' (ix2 k q')) (hc : c q = c' q') :
    layerHeadEntry a x Wl Wr b W c p q = layerHeadEntry a' x' Wl' Wr' b' W' c' p' q' := by
  unfold layerHeadEntry
  rw [hc, Finset.sum_congr rfl fun k _ => congrArg₂ (· * ·)
    (layerEntry_congr ha hx (fun j => hl j k) (fun j => hr j k) (hb k)) (hw k)]

end Cert.Sage

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.KernelBodies.lean ====
/-
  What each kernel body stores, read at an entry.

  The first body loads a block of 5000 rows of the neighbourhood means and of the node features, the two weight
  matrices and the bias row, and stores  max((A*Wl + X*Wr) + b, 0).  The narrowing of the operands to the short
  float format is the identity on the extended reals, each matrix-unit product into the zero accumulator is the plain
  sum over the contracted axis, and the bias row is repeated down the rows: so the stored block at (p, q) is the
  layer's entry of the loaded blocks.  The second body does the same, narrows the clamped block again (the identity
  again), multiplies it by the 128 x 64 head matrix and adds the head's bias row: the fused layer-and-head entry.
-/
import proofs.«171097_j54863912239933_1_alg».proof.Proof.Gen.KernelIdeal.Skeleton
import proofs.«171097_j54863912239933_1_alg».proof.Proof.SageSpec
import proofs.«171097_j54863912239933_1_alg».proof.Proof.LibPlainMatmul
import Idealize.ShloMosaic.Lib.ValueIdx
import Idealize.ShloMosaic.Lib.ValueLayout
import Idealize.ShloMosaic.Lib.Pipeline.Value

noncomputable section

open scoped BigOperators

namespace Cert.KernelIdeal.Bodies

open Cert.KernelIdeal Cert.KernelIdeal.Gen Idealize.ShloMosaic Idealize.ShloMosaic.ValueIdx

/-! ## How the three products place their coordinates -/

/-- A product of a 5000 x 128 block by a 128 x 128 matrix into the zero accumulator, at (p, q). -/
theorem mm128 (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.PlainMatmul.matmul_zero_apply dot_S5000x128_S128x128_S5000x128_1_0_0_1_n_n rfl rfl
    (fun j c => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j c => dot_S5000x128_S128x128_S5000x128_1_0_0_1_n_n.lhsIdx_val_of_single rfl j c)
    (fun j c => dot_S5000x128_S128x128_S5000x128_1_0_0_1_n_n.rhsIdx_val_of_single rfl j c)
    (fun j c => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none l r p q

/-- A product of a 5000 x 128 block by the 128 x 64 head matrix into the zero accumulator, at (p, q). -/
theorem mm64 (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) :=
  Cert.PlainMatmul.matmul_zero_apply dot_S5000x128_S128x64_S5000x64_1_0_0_1_n_n rfl rfl
    (fun j c => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun j c => dot_S5000x128_S128x64_S5000x64_1_0_0_1_n_n.lhsIdx_val_of_single rfl j c)
    (fun j c => dot_S5000x128_S128x64_S5000x64_1_0_0_1_n_n.rhsIdx_val_of_single rfl j c)
    (fun j c => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    none l r p q

/-! ## The clamped sum and the head's sum, over operands already narrowed -/

/-- The clamped sum both bodies form: at (p, q) it is the layer's entry of its operands, the bias row read at its
    one row. -/
theorem layer_block (a x : FVec Ideal S5000x128 .bf16) (wl wr : FVec Ideal S128x128 .bf16) (brow : FVec Ideal S1x128 .f32)
    (hb : S1x128.Broadcasts S5000x128) (p : Fin 5000) (q : Fin 128) :
    maximumf (addf (addf
        (matmul dot_S5000x128_S128x128_S5000x128_1_0_0_1_n_n none a wl (constant (F := Ideal) S5000x128 .f32 0x00000000#32))
        (matmul dot_S5000x128_S128x128_S5000x128_1_0_0_1_n_n none x wr (constant (F := Ideal) S5000x128 .f32 0x00000000#32)))
        (broadcastTo S5000x128 brow hb))
      (broadcast S5000x128 (Scalar.ofBits (F := Ideal) .f32 0x00000000#32)) (ix2 p q)
      = Cert.Sage.layerEntry a x wl wr (fun c => brow (ix2 (0 : Fin 1) c)) p q := by
  show max ((_ + _) + _) _ = max ((_ + _) + _) _
  rw [mm128, mm128, broadcastTo_1b_ab_apply]
  rfl

/-- The head's product and bias: at (p, q) the sum over the 128 features plus the bias row at q. -/
theorem head_block (h : FVec Ideal S5000x128 .bf16) (w : FVec Ideal S128x64 .bf16) (crow : FVec Ideal S1x64 .f32)
    (hb : S1x64.Broadcasts S5000x64) (p : Fin 5000) (q : Fin 64) :
    addf (matmul dot_S5000x128_S128x64_S5000x64_1_0_0_1_n_n none h w (constant (F := Ideal) S5000x64 .f32 0x00000000#32))
        (broadcastTo S5000x64 crow hb) (ix2 p q)
      = (∑ k : Fin 128, h (ix2 p k) * w (ix2 k q)) + crow (ix2 (0 : Fin 1) q) := by
  show _ + _ = _ + _
  rw [mm64, broadcastTo_1b_ab_apply]

/-! ## The two bodies -/

/-- What the first body stores, at (p, q): the layer's entry of the blocks it loaded.  The casts of a block to its own
    shape and the narrowing to the short format change nothing. -/
theorem layer_payload (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = Cert.Sage.layerEntry x0 x1 x2 x3 (fun c => x4 (ix2 (0 : Fin 1) c)) p q := by
  unfold k0_pay1
  refine (layer_block _ _ _ _ _ _ p q).trans ?_
  rw [shapeCast_self, shapeCast_self]
  rfl

/-- What the second body stores, at (p, q): the head's entry of the clamped layer of the blocks it loaded. -/
theorem layer_head_payload (x0 x1 : Vec Ideal S5000x128 .f32) (x2 x3 : Vec Ideal S128x128 .f32) (x4 : Vec Ideal S1x128 .f32)
    (x5 : Vec Ideal S128x64 .f32) (x6 : Vec Ideal S1x64 .f32) (p : Fin 5000) (q : Fin 64) :
    k1_pay1 (F := Ideal) x0 x1 x2 x3 x4 x5 x6 (ix2 p q)
      = Cert.Sage.layerHeadEntry x0 x1 x2 x3 (fun c => x4 (ix2 (0 : Fin 1) c)) x5 (fun c => x6 (ix2 (0 : Fin 1) c)) p q := by
  unfold k1_pay1
  refine (head_block _ _ _ _ p q).trans ?_
  unfold Cert.Sage.layerHeadEntry
  refine congrArg₂ (· + ·) (Finset.sum_congr rfl fun k _ => congrArg₂ (· * ·) ?_ rfl) ?_
  · refine (layer_block _ _ _ _ _ _ p k).trans ?_
    rw [shapeCast_self, shapeCast_self, shapeCast_self]
    rfl
  · rw [shapeCast_self]

end Cert.KernelIdeal.Bodies

end
-- ==== Proof.LayerArray.lean ====
/-
  The first kernel's result array, whole.

  The grid has ten points; point t works on rows 5000 t .. 5000 t + 4999 of the neighbourhood means, of the node features
  and of the result, and on the whole of the two weight matrices and the bias row.  What point t writes back is
  therefore the block of rows 5000 t .. of ONE array, the layer of the arrays the region was entered with: an entry of
  the layer reads only its own row of the two row-indexed operands.  The ten blocks cover the 50000 rows (row r lies in
  block r / 5000), so after the region the result array is that layer.  Everything is stated for arbitrary contents
  `V` at the region's entry.
-/
import proofs.«171097_j54863912239933_1_alg».proof.Proof.Gen.KernelIdeal.Frame
import proofs.«171097_j54863912239933_1_alg».proof.Proof.KernelBodies
import Idealize.ShloMosaic.Lib.Pipeline.Value

set_option maxRecDepth 16384

noncomputable section

open scoped BigOperators

namespace Cert.KernelIdeal.LayerArray

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the three row-blocked windows sit at block t of the rows, every other block index is 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays the region is entered with. -/
def result (c : Dev nD) : S50000x128.Idx → EReal :=
  Cert.Sage.layer (V c main_v24 : S50000x128.Idx → EReal) (V c main_arg0 : S50000x128.Idx → EReal)
    (V c main_arg2 : S128x128.Idx → EReal) (V c main_arg3 : S128x128.Idx → EReal)
    (fun q => (V c main_v25 : S1x128.Idx → EReal) (ix2 (0 : Fin 1) q))

/-- What point t writes back is block t of the layer. -/
theorem flushed (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices t
  funext j
  obtain ⟨p, q, rfl⟩ : ∃ (p : Fin 5000) (q : Fin 128), j = ix2 p q := ⟨j 0, j 1, eq_ix2 j⟩
  refine (Bodies.layer_payload (iblk0 V c 0 t) (iblk0 V c 1 t) (iblk0 V c 2 t) (iblk0 V c 3 t) (iblk0 V c 4 t) p q).trans ?_
  show _ = result V c (((cfg0.win 5).blk t).view.emb (ix2 p q))
  unfold result Cert.Sage.layer
  refine Cert.Sage.layerEntry_congr (fun k => ?_) (fun k => ?_) (fun k => ?_) (fun k => ?_) ?_
  · show (V c main_v24 : S50000x128.Idx → EReal) (((cfg0.win 0).blk t).view.emb (ix2 p k)) = _
    refine congrArg (V c main_v24 : S50000x128.Idx → EReal) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show (V c main_arg0 : S50000x128.Idx → EReal) (((cfg0.win 1).blk t).view.emb (ix2 p k)) = _
    refine congrArg (V c main_arg0 : S50000x128.Idx → EReal) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · show (V c main_arg2 : S128x128.Idx → EReal) (((cfg0.win 2).blk t).view.emb (ix2 k q)) = _
    refine congrArg (V c main_arg2 : S128x128.Idx → EReal) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show (V c main_arg3 : S128x128.Idx → EReal) (((cfg0.win 3).blk t).view.emb (ix2 k q)) = _
    refine congrArg (V c main_arg3 : S128x128.Idx → EReal) (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show (V c main_v25 : S1x128.Idx → EReal) (((cfg0.win 4).blk t).view.emb (ix2 (0 : Fin 1) q)) = _
    refine congrArg (V c main_v25 : S1x128.Idx → EReal) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the result array lies in point t's block iff each coordinate lies in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Every index of the result array is in the block of the point its row falls to. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, -, e50, e51⟩ := block_indices ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]
    omega

/-- After the region the result array is the layer of the arrays the region was entered with. -/
theorem array (c : Dev nD) : (dat0 V c).arrAt 5 cfg0.N = result V c :=
  (dat0 V c).arrAt_eq_of_cover 5 (result V c) (fun t _ => flushed V c t) covered

end Cert.KernelIdeal.LayerArray

end
-- ==== Proof.HeadArray.lean ====
/-
  The second kernel's result array, whole.

  Again ten grid points; point t works on rows 5000 t .. 5000 t + 4999 of the second neighbourhood means, of the first
  layer's features and of the result, and on the whole of the two weight matrices, the bias row, the head matrix and the
  head's bias row.  What point t writes back is the block of rows 5000 t .. of ONE array, the head of the layer of the
  arrays the region was entered with: an entry of it reads only its own row of the two row-indexed operands.  The ten
  blocks cover the 50000 rows, so after the region the result array is that head of that layer.  Everything is stated
  for arbitrary contents `V` at the region's entry.
-/
import proofs.«171097_j54863912239933_1_alg».proof.Proof.Gen.KernelIdeal.Frame
import proofs.«171097_j54863912239933_1_alg».proof.Proof.KernelBodies
import Idealize.ShloMosaic.Lib.Pipeline.Value

set_option maxRecDepth 16384

noncomputable section

open scoped BigOperators

namespace Cert.KernelIdeal.HeadArray

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the three row-blocked windows sit at block t of the rows, every other block index is 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The head of the layer of the arrays the region is entered with. -/
def result (c : Dev nD) : S50000x64.Idx → EReal :=
  Cert.Sage.head
    (Cert.Sage.layer (V c main_v39 : S50000x128.Idx → EReal) (V c main_v26 : S50000x128.Idx → EReal)
      (V c main_arg5 : S128x128.Idx → EReal) (V c main_arg6 : S128x128.Idx → EReal)
      (fun q => (V c main_v40 : S1x128.Idx → EReal) (ix2 (0 : Fin 1) q)))
    (V c main_arg8 : S128x64.Idx → EReal)
    (fun q => (V c main_v41 : S1x64.Idx → EReal) (ix2 (0 : Fin 1) q))

/-- The head of a layer, at any index, is the fused entry at the index's two coordinates. -/
theorem head_layer_at {n : Nat} (a x : (⟨2, ![n, 128]⟩ : Shape).Idx → EReal) (Wl Wr : (⟨2, ![128, 128]⟩ : Shape).Idx → EReal)
    (b : Fin 128 → EReal) (W : (⟨2, ![128, 64]⟩ : Shape).Idx → EReal) (d : Fin 64 → EReal) (i : (⟨2, ![n, 64]⟩ : Shape).Idx) :
    Cert.Sage.head (Cert.Sage.layer a x Wl Wr b) W d i = Cert.Sage.layerHeadEntry a x Wl Wr b W d (i 0) (i 1) := rfl

/-- What point t writes back is block t of the head of the layer. -/
theorem flushed (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets, View.ld_unit_zero (S := S128x64) zero_offsets,
    View.ld_unit_zero (S := S1x64) zero_offsets]
  obtain ⟨e00, e01, e10, e11, e20, e21, e30, e31, e40, e41, e50, e51, e60, e61, e70, e71⟩ := block_indices t
  funext j
  obtain ⟨p, q, rfl⟩ : ∃ (p : Fin 5000) (q : Fin 64), j = ix2 p q := ⟨j 0, j 1, eq_ix2 j⟩
  refine (Bodies.layer_head_payload (iblk1 V c 0 t) (iblk1 V c 1 t) (iblk1 V c 2 t) (iblk1 V c 3 t) (iblk1 V c 4 t)
    (iblk1 V c 5 t) (iblk1 V c 6 t) p q).trans ?_
  show _ = result V c (((cfg1.win 7).blk t).view.emb (ix2 p q))
  unfold result
  rw [head_layer_at]
  refine Cert.Sage.layerHeadEntry_congr (fun k => ?_) (fun k => ?_) (fun k j => ?_) (fun k j => ?_) (fun j => ?_) (fun k => ?_) ?_
  · show (V c main_v39 : S50000x128.Idx → EReal) (((cfg1.win 0).blk t).view.emb (ix2 p k)) = _
    refine congrArg (V c main_v39 : S50000x128.Idx → EReal) (funext fun a => Fin.ext ?_)
    match a with
    | ⟨0, _⟩ => show win1_0.index t (0 : Fin 2) * 5000 + 1 * p.val = win1_7.index t (0 : Fin 2) * 5000 + 1 * p.val; omega
    | ⟨1, _⟩ => show win1_0.index t (1 : Fin 2) * 128 + 1 * k.val = k.val; omega
  · show (V c main_v26 : S50000x128.Idx → EReal) (((cfg1.win 1).blk t).view.emb (ix2 p k)) = _
    refine congrArg (V c main_v26 : S50000x128.Idx → EReal) (funext fun a => Fin.ext ?_)
    match a with
    | ⟨0, _⟩ => show win1_1.index t (0 : Fin 2) * 5000 + 1 * p.val = win1_7.index t (0 : Fin 2) * 5000 + 1 * p.val; omega
    | ⟨1, _⟩ => show win1_1.index t (1 : Fin 2) * 128 + 1 * k.val = k.val; omega
  · show (V c main_arg5 : S128x128.Idx → EReal) (((cfg1.win 2).blk t).view.emb (ix2 k j)) = _
    refine congrArg (V c main_arg5 : S128x128.Idx → EReal) (funext fun a => Fin.ext ?_)
    match a with
    | ⟨0, _⟩ => show win1_2.index t (0 : Fin 2) * 128 + 1 * k.val = k.val; omega
    | ⟨1, _⟩ => show win1_2.index t (1 : Fin 2) * 128 + 1 * j.val = j.val; omega
  · show (V c main_arg6 : S128x128.Idx → EReal) (((cfg1.win 3).blk t).view.emb (ix2 k j)) = _
    refine congrArg (V c main_arg6 : S128x128.Idx → EReal) (funext fun a => Fin.ext ?_)
    match a with
    | ⟨0, _⟩ => show win1_3.index t (0 : Fin 2) * 128 + 1 * k.val = k.val; omega
    | ⟨1, _⟩ => show win1_3.index t (1 : Fin 2) * 128 + 1 * j.val = j.val; omega
  · show (V c main_v40 : S1x128.Idx → EReal) (((cfg1.win 4).blk t).view.emb (ix2 (0 : Fin 1) j)) = _
    refine congrArg (V c main_v40 : S1x128.Idx → EReal) (funext fun a => Fin.ext ?_)
    match a with
    | ⟨0, _⟩ => show win1_4.index t (0 : Fin 2) * 1 + 1 * 0 = 0; omega
    | ⟨1, _⟩ => show win1_4.index t (1 : Fin 2) * 128 + 1 * j.val = j.val; omega
  · show (V c main_arg8 : S128x64.Idx → EReal) (((cfg1.win 5).blk t).view.emb (ix2 k q)) = _
    refine congrArg (V c main_arg8 : S128x64.Idx → EReal) (funext fun a => Fin.ext ?_)
    match a with
    | ⟨0, _⟩ => show win1_5.index t (0 : Fin 2) * 128 + 1 * k.val = k.val; omega
    | ⟨1, _⟩ => show win1_5.index t (1 : Fin 2) * 64 + 1 * q.val = win1_7.index t (1 : Fin 2) * 64 + 1 * q.val; omega
  · show (V c main_v41 : S1x64.Idx → EReal) (((cfg1.win 6).blk t).view.emb (ix2 (0 : Fin 1) q)) = _
    refine congrArg (V c main_v41 : S1x64.Idx → EReal) (funext fun a => Fin.ext ?_)
    match a with
    | ⟨0, _⟩ => show win1_6.index t (0 : Fin 2) * 1 + 1 * 0 = 0; omega
    | ⟨1, _⟩ => show win1_6.index t (1 : Fin 2) * 64 + 1 * q.val = win1_7.index t (1 : Fin 2) * 64 + 1 * q.val; omega

/-- An index of the result array lies in point t's block iff each coordinate lies in the block's range on its axis. -/
theorem mem_block (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v42).slice (win1_7.rect t)).set ↔ _
  rw [View.set_slice_whole, Rect.mem_set_unit]
  exact Iff.rfl

/-- Every index of the result array is in the block of the point its row falls to. -/
theorem covered (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 10 := N_1
  have ht : (i 0).val / 5000 < grid1.N := by rw [hN]; omega
  obtain ⟨-, -, -, -, -, -, -, -, -, -, -, -, -, -, e70, e71⟩ := block_indices ⟨(i 0).val / 5000, ht⟩
  refine ⟨⟨(i 0).val / 5000, ht⟩, flush1_7 _, ?_⟩
  rw [mem_block]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win1_7.index ⟨(i 0).val / 5000, ht⟩ (1 : Fin 2) * 64 ≤ (i 1).val
      ∧ (i 1).val < win1_7.index ⟨(i 0).val / 5000, ht⟩ (1 : Fin 2) * 64 + 64
    rw [e71]
    omega

/-- After the region the result array is the head of the layer of the arrays the region was entered with. -/
theorem array (c : Dev nD) : (dat1 V c).arrAt 7 cfg1.N = result V c :=
  (dat1 V c).arrAt_eq_of_cover 7 (result V c) (fun t _ => flushed V c t) covered

end Cert.KernelIdeal.HeadArray

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.RefValue.lean ====
/-
  The reference program's result is the specification.

  The reference aggregates neighbour features on the host (a gather of rows at the edge sources, a scatter-add into
  the edge destinations' rows, a scaling of each row by the reciprocal of its clamped in-degree), then forms
  max((agg*Wl + x*Wr) + b, 0) with the host's matrix products, does both again on the result, and ends with the head
  h*Wfc + bfc.  The aggregation is the same chain of host operations in the kernel program; it is named here as ONE
  function of the features and the edge list and never opened.  Each host product at the extended reals is the plain sum
  over the contracted axis, each bias is laid along the rows, and the zero under the maximum is the float zero word:
  so each stage is the specification's layer, and the last the specification's head.
-/
import proofs.«171097_j54863912239933_1_alg».proof.Proof.Gen.ReferenceIdeal.Read
import proofs.«171097_j54863912239933_1_alg».proof.Proof.SageSpec
import proofs.«171097_j54863912239933_1_alg».proof.Proof.LibHostRowOps
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx

/-- The mean of the neighbours' rows: gather the rows of `h` at the edge sources, add them into the rows of the edge
    destinations, scale row r by the reciprocal of max(in-degree of r, 1).  One function of the features and the edge
    list. -/
def meanAgg (h : FVec Ideal S50000x128 .f32) (e : IVec S2x800000 32) :
    FVec Ideal S50000x128 .f32 :=
  mulf (Host.scatterAdd scatter_S50000x128_S800000x1_S800000x128_1_0_0_1 (val_main_v19 (F := Ideal)) (val_main_v20 (F := Ideal) e)
      (Host.gather gather_S50000x128_S800000x1_S800000x128_1_0_n_n_0_1_1128 h (val_main_v17 (F := Ideal) e)))
    (val_main_v23 (F := Ideal) e)

/-- The first aggregation is `meanAgg` of the node features. -/
theorem agg_first (x0 : FVec Ideal S50000x128 .f32) (e : IVec S2x800000 32) :
    val_main_v24 (F := Ideal) x0 e = meanAgg x0 e := rfl

/-- The second aggregation is `meanAgg` of the first layer's features: the same operations on another operand. -/
theorem agg_second (x0 : FVec Ideal S50000x128 .f32) (e : IVec S2x800000 32)
    (x2 x3 : FVec Ideal S128x128 .f32) (x4 : FVec Ideal S128 .f32) :
    val_main_v44 (F := Ideal) x0 e x2 x3 x4 = meanAgg (val_main_v31 (F := Ideal) x0 e x2 x3 x4) e := rfl

/-! ## The host's operations at an entry -/

theorem dot128 (l : FVec Ideal S50000x128 .f32) (r : FVec Ideal S128x128 .f32)
    (p : Fin 50000) (q : Fin 128) :
    Host.dotGeneral (F := Ideal) dot_S50000x128_S128x128_S50000x128_1_0_0_1_n_n none l r (ix2 p q)
      = ∑ k : Fin 128, l (ix2 p k) * r (ix2 k q) :=
  Cert.HostRowOps.hostDot_apply dot_S50000x128_S128x128_S50000x128_1_0_0_1_n_n rfl rfl
    lhs_main_v25_0 lhs_main_v25_1 rhs_main_v25_0 rhs_main_v25_1 none l r p q

theorem dot64 (l : FVec Ideal S50000x128 .f32) (r : FVec Ideal S128x64 .f32)
    (p : Fin 50000) (q : Fin 64) :
    Host.dotGeneral (F := Ideal) dot_S50000x128_S128x64_S50000x64_1_0_0_1_n_n none l r (ix2 p q)
      = ∑ k : Fin 128, l (ix2 p k) * r (ix2 k q) :=
  Cert.HostRowOps.hostDot_apply dot_S50000x128_S128x64_S50000x64_1_0_0_1_n_n rfl rfl
    lhs_main_v52_0 lhs_main_v52_1 rhs_main_v52_0 rhs_main_v52_1 none l r p q

/-- A 128-vector laid along the rows of a 50000 x 128 array reads, at (p, q), its entry q. -/
theorem bias128 (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) :=
  (val_main_v29_apply (F := Ideal) b (ix2 p q)).trans ((val_main_v28_apply (F := Ideal) b _).trans
    (congrArg b (funext fun a => match a with | ⟨0, _⟩ => rfl)))

/-- A 64-vector laid along the rows of a 50000 x 64 array reads, at (p, q), its entry q. -/
theorem bias64 (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) :=
  (val_main_v54_apply (F := Ideal) b (ix2 p q)).trans ((val_main_v53_apply (F := Ideal) b _).trans
    (congrArg b (funext fun a => match a with | ⟨0, _⟩ => rfl)))

/-- The zero array under the maximum reads the float zero word everywhere. -/
theorem zeros (i : S50000x128.Idx) :
    broadcastInDim S50000x128 ![] bcast_S_S50000x128 (constant (F := Ideal) S_ .f32 0x00000000#32) i = Cert.Sage.zeroWord :=
  (val_main_call0_v0_apply (F := Ideal) i).trans (val_main_call0_cst_apply (F := Ideal) _)

/-! ## The stages -/

/-- The reference's layer expression over any operands is the specification's layer. -/
theorem layer_expr (a x : FVec Ideal S50000x128 .f32) (wl wr : FVec Ideal S128x128 .f32)
    (b : FVec Ideal S128 .f32) :
    maximumf (addf (addf (Host.dotGeneral (F := Ideal) dot_S50000x128_S128x128_S50000x128_1_0_0_1_n_n none a wl)
          (Host.dotGeneral (F := Ideal) dot_S50000x128_S128x128_S50000x128_1_0_0_1_n_n none x wr))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = Cert.Sage.layer a x wl wr (fun q => b (ix1 q)) := by
  funext i
  obtain ⟨p, q, rfl⟩ : ∃ (p : Fin 50000) (q : Fin 128), i = ix2 p q := ⟨i 0, i 1, eq_ix2 i⟩
  show max ((_ + _) + _) _ = max ((_ + _) + _) _
  rw [dot128, dot128, bias128, zeros]

/-- The reference's head expression over any operands is the specification's head. -/
theorem head_expr (h : FVec Ideal S50000x128 .f32) (w : FVec Ideal S128x64 .f32)
    (b : FVec Ideal S64 .f32) :
    addf (Host.dotGeneral (F := Ideal) dot_S50000x128_S128x64_S50000x64_1_0_0_1_n_n none h w)
        (broadcastInDim S50000x64 ![0, 1] bcast_S1x64_S50000x64_0_1 (broadcastInDim S1x64 ![1] bcast_S64_S1x64_1 b))
      = Cert.Sage.head h w (fun q => b (ix1 q)) := by
  funext i
  obtain ⟨p, q, rfl⟩ : ∃ (p : Fin 50000) (q : Fin 64), i = ix2 p q := ⟨i 0, i 1, eq_ix2 i⟩
  show _ + _ = _ + _
  rw [dot64, bias64]

/-- The whole network as the specification spells it, from the arguments. -/
def network (x0 : FVec Ideal S50000x128 .f32) (e : IVec S2x800000 32)
    (x2 x3 : FVec Ideal S128x128 .f32) (x4 : FVec Ideal S128 .f32)
    (x5 x6 : FVec Ideal S128x128 .f32) (x7 : FVec Ideal S128 .f32)
    (x8 : FVec Ideal S128x64 .f32) (x9 : FVec Ideal S64 .f32) :
    FVec Ideal S50000x64 .f32 :=
  Cert.Sage.head
    (Cert.Sage.layer (meanAgg (Cert.Sage.layer (meanAgg x0 e) x0 x2 x3 (fun q => x4 (ix1 q))) e)
      (Cert.Sage.layer (meanAgg x0 e) x0 x2 x3 (fun q => x4 (ix1 q))) x5 x6 (fun q => x7 (ix1 q)))
    x8 (fun q => x9 (ix1 q))

/-- The first layer's features. -/
theorem first_layer (x0 : FVec Ideal S50000x128 .f32) (e : IVec S2x800000 32)
    (x2 x3 : FVec Ideal S128x128 .f32) (x4 : FVec Ideal S128 .f32) :
    val_main_v31 (F := Ideal) x0 e x2 x3 x4 = Cert.Sage.layer (meanAgg x0 e) x0 x2 x3 (fun q => x4 (ix1 q)) :=
  layer_expr (val_main_v24 (F := Ideal) x0 e) x0 x2 x3 x4

/-- The reference's result is the network. -/
theorem result_eq (x0 : FVec Ideal S50000x128 .f32) (e : IVec S2x800000 32)
    (x2 x3 : FVec Ideal S128x128 .f32) (x4 : FVec Ideal S128 .f32)
    (x5 x6 : FVec Ideal S128x128 .f32) (x7 : FVec Ideal S128 .f32)
    (x8 : FVec Ideal S128x64 .f32) (x9 : FVec Ideal S64 .f32) :
    val_main_v55 (F := Ideal) x0 e x2 x3 x4 x5 x6 x7 x8 x9 = network x0 e x2 x3 x4 x5 x6 x7 x8 x9 := by
  refine (head_expr (val_main_v51 (F := Ideal) x0 e x2 x3 x4 x5 x6 x7) x8 x9).trans ?_
  have h1 : val_main_v51 (F := Ideal) x0 e x2 x3 x4 x5 x6 x7
      = Cert.Sage.layer (meanAgg (val_main_v31 (F := Ideal) x0 e x2 x3 x4) e) (val_main_v31 (F := Ideal) x0 e x2 x3 x4) x5 x6
          (fun q => x7 (ix1 q)) :=
    layer_expr (val_main_v44 (F := Ideal) x0 e x2 x3 x4) (val_main_v31 (F := Ideal) x0 e x2 x3 x4) x5 x6 x7
  rw [h1, first_layer]
  rfl

end Cert.ReferenceIdeal.RefValue

end
-- ==== Proof.KernelValue.lean ====
/-
  The kernel program's result array, from the arguments.

  At the last boundary the result buffer holds what the second region leaves: the head of the layer of that region's
  entry arrays.  Those entry arrays are read back through the program.  The second region's neighbourhood means are
  the host's aggregation of the first region's result; its feature operand IS the first region's result; its weights,
  bias rows and head matrix are arguments (the bias vectors recast as one-row arrays).  The first region's result is
  the layer of ITS entry arrays: the host's aggregation of the node features, the node features, two weight arguments
  and a recast bias.  Each host stretch is read by running its operations' results in order; a buffer no operation
  and no region writes keeps what it held.  The aggregation is the same chain of host operations the reference makes,
  so it is stated as the one function the reference side names.
-/
import proofs.«171097_j54863912239933_1_alg».proof.Proof.Gen.KernelIdeal.Frame
import proofs.«171097_j54863912239933_1_alg».proof.Proof.LayerArray
import proofs.«171097_j54863912239933_1_alg».proof.Proof.HeadArray
import proofs.«171097_j54863912239933_1_alg».proof.Proof.RefValue
import Idealize.ShloMosaic.Lib.StableHlo.Run
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo
open Cert.ReferenceIdeal.RefValue (meanAgg network)

variable (m : (ℓ : Loc nD τ sig) → Buf (Elt Ideal) ℓ) (ρ : Dev nD → PrngReg) (c : Dev nD)

/-! ## The first host stretch: what the first region is entered with -/

theorem entry0_means : (V1 m ρ c main_v24 : S50000x128.Idx → EReal)
    = meanAgg (m ((c : Thread nD τ).loc main_arg0)) (m ((c : Thread nD τ).loc main_arg1)) := by
  show StableHlo.after hostOps0 (W0 m ρ c) (Proc.devRef .tc main_v24) = _
  after_results_simp <;> rfl

theorem entry0_feat : V1 m ρ c main_arg0 = m ((c : Thread nD τ).loc main_arg0) := by
  show StableHlo.after hostOps0 (W0 m ρ c) (Proc.devRef .tc main_arg0) = _
  after_results_simp <;> rfl

theorem entry0_wl : V1 m ρ c main_arg2 = m ((c : Thread nD τ).loc main_arg2) := by
  show StableHlo.after hostOps0 (W0 m ρ c) (Proc.devRef .tc main_arg2) = _
  after_results_simp <;> rfl

theorem entry0_wr : V1 m ρ c main_arg3 = m ((c : Thread nD τ).loc main_arg3) := by
  show StableHlo.after hostOps0 (W0 m ρ c) (Proc.devRef .tc main_arg3) = _
  after_results_simp <;> rfl

theorem entry0_bias (q : Fin 128) : (V1 m ρ c main_v25 : S1x128.Idx → EReal) (ix2 (0 : Fin 1) q)
    = (m ((c : Thread nD τ).loc main_arg4) : S128.Idx → EReal) (ix1 q) := by
  have e : (V1 m ρ c main_v25 : S1x128.Idx → EReal)
      = shapeCast S1x128 (m ((c : Thread nD τ).loc main_arg4) : S128.Idx → EReal) shapeCasts_S128_S1x128 := by
    show StableHlo.after hostOps0 (W0 m ρ c) (Proc.devRef .tc main_v25) = _
    after_results_simp <;> rfl
  rw [e]
  exact shapeCast_a_1a_apply _ _ (0 : Fin 1) q

/-! ## The first region's result -/

/-- The first layer's features as the specification spells them from the arguments. -/
def firstLayer : S50000x128.Idx → EReal :=
  Cert.Sage.layer (meanAgg (m ((c : Thread nD τ).loc main_arg0)) (m ((c : Thread nD τ).loc main_arg1)))
    (m ((c : Thread nD τ).loc main_arg0) : S50000x128.Idx → EReal) (m ((c : Thread nD τ).loc main_arg2) : S128x128.Idx → EReal)
    (m ((c : Thread nD τ).loc main_arg3) : S128x128.Idx → EReal)
    (fun q => (m ((c : Thread nD τ).loc main_arg4) : S128.Idx → EReal) (ix1 q))

/-- After the first region its result buffer holds the first layer's features. -/
theorem region0_result : (W2 m ρ c (Proc.devRef .tc main_v26) : S50000x128.Idx → EReal) = firstLayer m c := by
  refine (W2_arr m ρ c 5).trans ((LayerArray.array (V1 m ρ) c).trans ?_)
  unfold LayerArray.result firstLayer
  rw [entry0_means, entry0_feat, entry0_wl, entry0_wr]
  exact congrArg (Cert.Sage.layer _ _ _ _) (funext fun q => entry0_bias m ρ c q)

/-! ## Buffers the first region does not touch, read back to the launch -/

theorem edge_sources : W2 m ρ c (Proc.devRef .tc main_v1)
    = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl

theorem edge_targets : W2 m ρ c (Proc.devRef .tc main_v3)
    = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

theorem inverse_degrees : W2 m ρ c (Proc.devRef .tc main_v11)
    = Cert.ReferenceIdeal.Read.val_main_v11 (F := Ideal) (m ((c : Thread nD τ).loc main_arg1)) := by
  rw [W2_of_ne m ρ c main_v11 (by decide)]
  show StableHlo.after hostOps0 (W0 m ρ c) (Proc.devRef .tc main_v11) = _
  after_results_simp <;> rfl

theorem kept5 : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp <;> rfl

theorem kept6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

theorem kept7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

theorem kept8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

theorem kept9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl

/-! ## The second host stretch: what the second region is entered with -/

theorem entry1_means : (V3 m ρ c main_v39 : S50000x128.Idx → EReal)
    = meanAgg (W2 m ρ c (Proc.devRef .tc main_v26)) (m ((c : Thread nD τ).loc main_arg1)) := by
  show StableHlo.after hostOps1 (W2 m ρ c) (Proc.devRef .tc main_v39) = _
  after_results_simp
  rw [edge_sources, edge_targets, inverse_degrees]
  rfl

theorem entry1_feat : V3 m ρ c main_v26 = W2 m ρ c (Proc.devRef .tc main_v26) := by
  show StableHlo.after hostOps1 (W2 m ρ c) (Proc.devRef .tc main_v26) = _
  after_results_simp <;> rfl

theorem entry1_wl : V3 m ρ c main_arg5 = m ((c : Thread nD τ).loc main_arg5) := by
  show StableHlo.after hostOps1 (W2 m ρ c) (Proc.devRef .tc main_arg5) = _
  after_results_simp
  exact kept5 m ρ c

theorem entry1_wr : V3 m ρ c main_arg6 = m ((c : Thread nD τ).loc main_arg6) := by
  show StableHlo.after hostOps1 (W2 m ρ c) (Proc.devRef .tc main_arg6) = _
  after_results_simp
  exact kept6 m ρ c

theorem entry1_head : V3 m ρ c main_arg8 = m ((c : Thread nD τ).loc main_arg8) := by
  show StableHlo.after hostOps1 (W2 m ρ c) (Proc.devRef .tc main_arg8) = _
  after_results_simp
  exact kept8 m ρ c

theorem entry1_bias (q : Fin 128) : (V3 m ρ c main_v40 : S1x128.Idx → EReal) (ix2 (0 : Fin 1) q)
    = (m ((c : Thread nD τ).loc main_arg7) : S128.Idx → EReal) (ix1 q) := by
  have e : (V3 m ρ c main_v40 : S1x128.Idx → EReal)
      = shapeCast S1x128 (m ((c : Thread nD τ).loc main_arg7) : S128.Idx → EReal) shapeCasts_S128_S1x128 := by
    show StableHlo.after hostOps1 (W2 m ρ c) (Proc.devRef .tc main_v40) = _
    after_results_simp
    rw [kept7]
    rfl
  rw [e]
  exact shapeCast_a_1a_apply _ _ (0 : Fin 1) q

theorem entry1_head_bias (q : Fin 64) : (V3 m ρ c main_v41 : S1x64.Idx → EReal) (ix2 (0 : Fin 1) q)
    = (m ((c : Thread nD τ).loc main_arg9) : S64.Idx → EReal) (ix1 q) := by
  have e : (V3 m ρ c main_v41 : S1x64.Idx → EReal)
      = shapeCast S1x64 (m ((c : Thread nD τ).loc main_arg9) : S64.Idx → EReal) shapeCasts_S64_S1x64 := by
    show StableHlo.after hostOps1 (W2 m ρ c) (Proc.devRef .tc main_v41) = _
    after_results_simp
    rw [kept9]
    rfl
  rw [e]
  exact shapeCast_a_1a_apply _ _ (0 : Fin 1) q

/-! ## The result -/

/-- At the last boundary the result buffer holds the network of the arguments. -/
theorem result_eq : (W4 m ρ c (Proc.devRef .tc main_v42) : S50000x64.Idx → EReal)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W4_arr m ρ c 7).trans ((HeadArray.array (V3 m ρ) c).trans ?_)
  unfold HeadArray.result network
  have hb : (fun q : Fin 128 => (V3 m ρ c main_v40 : S1x128.Idx → EReal) (ix2 (0 : Fin 1) q))
      = fun q => (m ((c : Thread nD τ).loc main_arg7) : S128.Idx → EReal) (ix1 q) := funext (entry1_bias m ρ c)
  have hc : (fun q : Fin 64 => (V3 m ρ c main_v41 : S1x64.Idx → EReal) (ix2 (0 : Fin 1) q))
      = fun q => (m ((c : Thread nD τ).loc main_arg9) : S64.Idx → EReal) (ix1 q) := funext (entry1_head_bias m ρ c)
  rw [hb, hc, entry1_means, entry1_feat, region0_result, entry1_wl, entry1_wr, entry1_head]
  unfold firstLayer
  rfl

end Cert.KernelIdeal.KernelValue

end
-- ==== Proof.lean ====
/-
  Two graph-convolution layers and a linear head: a kernel program against its plain reference, on the extended reals.

  Both programs compute, for node features x (50000 x 128) and an edge list,

      agg(h)  =  the mean over each node's incoming edges of the source rows of h   (a gather, a scatter-add, a
                 scaling of each row by 1 / max(in-degree, 1): host operations in BOTH programs),
      h0      =  max( (agg(x)  * Wl0 + x  * Wr0) + b0 , 0 ),
      h1      =  max( (agg(h0) * Wl1 + h0 * Wr1) + b1 , 0 ),
      out     =  h1 * Wfc + bfc.

  The kernel program forms h0 in one kernel region and h1 followed by the head in a second one, each over ten blocks of
  5000 rows, narrowing the matrix operands to a short float format first; the reference uses host matrix products.
  On the extended reals the narrowing is the identity and a matrix-unit product into a zero accumulator is the plain
  sum over the contracted axis, as is the host's product; the additions are grouped the same way in both programs; so
  the two results are the same expression of the arguments, entry by entry, and no law of the extended reals (hence no
  finiteness of the inputs) is needed.  The aggregation is the same chain of host operations on both sides and is
  carried as one function, never opened.

  The three frame claims are the generated frame certificates (the reference's is its run with the result dropped);
  the idealization rewrote nothing, so that conjunct is trivial; the value claim joins the kernel program's run, read at
  its last boundary and walked back to the arguments, with the reference's run, both equal to the same network of the
  arguments.
-/
import proofs.«171097_j54863912239933_1_alg».proof.Defs
import proofs.«171097_j54863912239933_1_alg».proof.Proof.Gen.Kernel
import proofs.«171097_j54863912239933_1_alg».proof.Proof.Gen.Kernel.Skeleton
import proofs.«171097_j54863912239933_1_alg».proof.Proof.Gen.Kernel.Launch
import proofs.«171097_j54863912239933_1_alg».proof.Proof.Gen.Kernel.Points
import proofs.«171097_j54863912239933_1_alg».proof.Proof.Gen.Kernel.Frame
import proofs.«171097_j54863912239933_1_alg».proof.Proof.Gen.KernelIdeal
import proofs.«171097_j54863912239933_1_alg».proof.Proof.Gen.KernelIdeal.Skeleton
import proofs.«171097_j54863912239933_1_alg».proof.Proof.Gen.KernelIdeal.Launch
import proofs.«171097_j54863912239933_1_alg».proof.Proof.Gen.KernelIdeal.Points
import proofs.«171097_j54863912239933_1_alg».proof.Proof.Gen.KernelIdeal.Frame
import proofs.«171097_j54863912239933_1_alg».proof.Proof.Gen.ReferenceIdeal
import proofs.«171097_j54863912239933_1_alg».proof.Proof.Gen.ReferenceIdeal.Run
import proofs.«171097_j54863912239933_1_alg».proof.Proof.Gen.ReferenceIdeal.Read
import proofs.«171097_j54863912239933_1_alg».proof.Proof.Gen.Pre_finite_inputs
import proofs.«171097_j54863912239933_1_alg».proof.Proof.KernelRun
import proofs.«171097_j54863912239933_1_alg».proof.Proof.KernelValue
import proofs.«171097_j54863912239933_1_alg».proof.Proof.RefValue
import Idealize.ShloMosaic.Adequacy
import Idealize.ShloMosaic.Init

noncomputable section

namespace Cert.Proof

open Idealize.ShloMosaic Idealize.SL.Sem

/-- The kernel program as printed runs to the end without a fault and leaves its arguments as they were. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result arrays. -/
theorem algebraic : Cert.algebraic_KernelIdeal_ReferenceIdeal := by
  intro m ρ m' ρ' _ hagree
  refine ⟨fun c => Cert.ReferenceIdeal.RefValue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact Cert.KernelIdeal.Run.ends_at_last_boundary m ρ (fun s h c =>
      ⟨(h c _ (Cert.KernelIdeal.Gen.mem_uc Cert.KernelIdeal.main_v42 (by decide))).trans (Cert.KernelIdeal.KernelValue.result_eq m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c),
       (h c _ (Cert.KernelIdeal.Gen.mem_uc Cert.KernelIdeal.main_arg8 (by decide))).trans (Cert.KernelIdeal.Gen.W4_main_arg8 m ρ c),
       (h c _ (Cert.KernelIdeal.Gen.mem_uc Cert.KernelIdeal.main_arg9 (by decide))).trans (Cert.KernelIdeal.Gen.W4_main_arg9 m ρ c)⟩)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v55_eq, Cert.ReferenceIdeal.RefValue.result_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
